-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x3 : Shape := ⟨3, ![64, 512, 3]⟩
abbrev S64x512x512 : Shape := ⟨3, ![64, 512, 512]⟩
abbrev S64x1 : Shape := ⟨2, ![64, 1]⟩
abbrev S64x512 : Shape := ⟨2, ![64, 512]⟩
abbrev S_ : Shape := ⟨0, ![]⟩

class Facts : Prop where
  bcast_S_S64x512x3 : S_.BroadcastsInDim S64x512x3 (![] : Fin 0 → Fin S64x512x3.rank)
  reducesTo_S64x512x3_S_d0_1_2 : S64x512x3.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x512x512 .f32) (main_v13 : IVec S_ 1) (main_v16 : IVec S64x512x3 1) : IVec S_ 1 :=
  let main_c_5 : IVec S_ 1 := constantI S_ 1 1#1
  let main_v17 : IVec S_ 1 := (fun x v => Host.reduce IntOp.andi x v reducesTo_S64x512x3_S_d0_1_2 h_S_) main_v16 main_c_5
  let main_v18 : IVec S_ 1 := andi main_v13 main_v17
  let main_v19 : FVec F S64x512x512 .f32 := Host.absf main_arg4
  let main_cst_6 : FVec F S_ .f32 := constant S_ .f32 0x7F800000#32
  let main_v20 : FVec F S64x512x512 .f32 := broadcastInDim S64x512x512 ![] bcast_S_S64x512x512 main_cst_6
  let main_v21 : IVec S64x512x512 1 := cmpf .olt main_v19 main_v20
  let main_c_7 : IVec S_ 1 := constantI S_ 1 1#1
  let main_v22 : IVec S_ 1 := (fun x v => Host.reduce IntOp.andi x v reducesTo_S64x512x512_S_d0_1_2 h_S_) main_v21 main_c_7
  let main_v23 : IVec S_ 1 := andi main_v18 main_v22
  main_v23

def fn {F : FTy → Type} [FloatOps F] (main_arg0 : FVec F S64x512x3 .f32) (main_arg1 : FVec F S64x512x512 .f32) (main_arg2 : FVec F S64x1 .f32) (main_arg3 : FVec F S64x512x3 .f32) (main_arg4 : FVec F S64x512x512 .f32) (main_arg5 : IVec S64x512 32) : IVec S_ 1 :=
  let main_v0 : FVec F S64x512x3 .f32 := Host.absf main_arg0
  let main_cst : FVec F S_ .f32 := constant S_ .f32 0x7F800000#32
  let main_v1 : FVec F S64x512x3 .f32 := broadcastInDim S64x512x3 ![] bcast_S_S64x512x3 main_cst
  let main_v2 : IVec S64x512x3 1 := cmpf .olt main_v0 main_v1
  let main_c : IVec S_ 1 := constantI S_ 1 1#1
  let main_v3 : IVec S_ 1 := (fun x v => Host.reduce IntOp.andi x v reducesTo_S64x512x3_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x512x3 .f32 := Host.absf main_arg3
  let main_cst_4 : FVec F S_ .f32 := constant S_ .f32 0x7F800000#32
  let main_v15 : FVec F S64x512x3 .f32 := broadcastInDim S64x512x3 ![] bcast_S_S64x512x3 main_cst_4
  let main_v16 : IVec S64x512x3 1 := cmpf .olt main_v14 main_v15
  fn_part1 (F := F) main_arg4 main_v13 main_v16
-- ==== Kernel.lean ====
abbrev S64x512x3 : Shape := ⟨3, ![64, 512, 3]⟩
abbrev S64x512x512 : Shape := ⟨3, ![64, 512, 512]⟩
abbrev S64x1 : Shape := ⟨2, ![64, 1]⟩
abbrev S64x512 : Shape := ⟨2, ![64, 512]⟩
abbrev S_ : Shape := ⟨0, ![]⟩
abbrev S64 : Shape := ⟨1, ![64]⟩
abbrev S64x512x1 : Shape := ⟨3, ![64, 512, 1]⟩
abbrev S64x1x512 : Shape := ⟨3, ![64, 1, 512]⟩
abbrev S64x1x128 : Shape := ⟨3, ![64, 1, 128]⟩
abbrev S4x512x3 : Shape := ⟨3, ![4, 512, 3]⟩
abbrev S4x512x1 : Shape := ⟨3, ![4, 512, 1]⟩
abbrev S4x1x512 : Shape := ⟨3, ![4, 1, 512]⟩
abbrev S4x512x512 : Shape := ⟨3, ![4, 512, 512]⟩
abbrev S4x1x128 : Shape := ⟨3, ![4, 1, 128]⟩
abbrev S4x512 : Shape := ⟨2, ![4, 512]⟩
abbrev S4 : Shape := ⟨1, ![4]⟩
abbrev S4x126 : Shape := ⟨2, ![4, 126]⟩
abbrev S4x1 : Shape := ⟨2, ![4, 1]⟩
abbrev S4x128 : Shape := ⟨2, ![4, 128]⟩
abbrev S64x1x1 : Shape := ⟨3, ![64, 1, 1]⟩

abbrev nBuf : Space → Nat
  | .hbm => 69
  | .vmem => 14
  | .smem => 0
  | _ => 0

abbrev bufTy : (tb : Table) → Fin (tcTables nBuf tb) → BufTy
  | .hbm, ⟨0, _⟩ => ⟨S64x512x3, .f32⟩
  | .hbm, ⟨1, _⟩ => ⟨S64x512x512, .f32⟩
  | .hbm, ⟨2, _⟩ => ⟨S64x1, .f32⟩
  | .hbm, ⟨3, _⟩ => ⟨S64x512x3, .f32⟩
  | .hbm, ⟨4, _⟩ => ⟨S64x512x512, .f32⟩
  | .hbm, ⟨5, _⟩ => ⟨S64x512, .i32⟩
  | .hbm, ⟨6, _⟩ => ⟨S64x512, .f32⟩
  | .hbm, ⟨7, _⟩ => ⟨S_, .f32⟩
  | .hbm, ⟨8, _⟩ => ⟨S64, .f32⟩
  | .hbm, ⟨9, _⟩ => ⟨S64x512x1, .f32⟩
  | .hbm, ⟨10, _⟩ => ⟨S64x1x512, .f32⟩
  | .hbm, ⟨11, _⟩ => ⟨S64x1x128, .f32⟩
  | .hbm, ⟨12, _⟩ => ⟨S64x1x1, .f32⟩
  | .hbm, ⟨13, _⟩ => ⟨S64, .f32⟩
  | .hbm, ⟨14, _⟩ => ⟨S64x1x1, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .i1⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512x1, .f32⟩
  | .local _ .vmem, ⟨5, _⟩ => ⟨S4x512x1, .f32⟩
  | .local _ .vmem, ⟨6, _⟩ => ⟨S4x1x512, .f32⟩
  | .local _ .vmem, ⟨7, _⟩ => ⟨S4x1x512, .f32⟩
  | .local _ .vmem, ⟨8, _⟩ => ⟨S4x512x512, .f32⟩
  | .local _ .vmem, ⟨9, _⟩ => ⟨S4x512x512, .f32⟩
  | .local _ .vmem, ⟨10, _⟩ => ⟨S4x512x512, .f32⟩
  | .local _ .vmem, ⟨11, _⟩ => ⟨S4x512x512, .f32⟩
  | .local _ .vmem, ⟨12, _⟩ => ⟨S4x1x128, .f32⟩
  | .local _ .vmem, ⟨13, _⟩ => ⟨S4x1x128, .f32⟩
  | _, _ => ⟨S64x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_call0_v0 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_cst_14 : Ref sig .tc := ⟨.hbm, 61, rfl⟩
abbrev main_v39 : Ref sig .tc := ⟨.hbm, 62, rfl⟩
abbrev main_cst_15 : Ref sig .tc := ⟨.hbm, 63, rfl⟩
abbrev main_v40 : Ref sig .tc := ⟨.hbm, 64, rfl⟩
abbrev main_v41 : Ref sig .tc := ⟨.hbm, 65, rfl⟩
abbrev main_cst_16 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S64x512_S64_d1 : S64x512.ReducesTo [1] S64
  h_S_ : 0 < S_.numel
  shapeCasts_S64x512_S64x512x1 : S64x512.ShapeCasts S64x512x1
  shapeCasts_S64x512_S64x1x512 : S64x512.ShapeCasts S64x1x512
  inb_S4x512x3_S4x512x3_0_0_0 : ∀ a, (![0, 0, 0] : Fin 3 → Nat) a + S4x512x3.size a ≤ S4x512x3.size a
  h_S4x512x3 : 0 < S4x512x3.numel
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  broadcasts_S4x512x1_S4x512x3 : S4x512x1.Broadcasts S4x512x3
  reduces_S4x512x3_S4x512 : S4x512x3.Reduces [2] S4x512
  reduces_S4x512_S4 : S4x512.Reduces [1] S4
  inb_S4x512x512_S4x512x512_0_0_0 : ∀ a, (![0, 0, 0] : Fin 3 → Nat) a + S4x512x512.size a ≤ S4x512x512.size a
  h_S4x512x512 : 0 < S4x512x512.numel
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  broadcasts_S4x1x512_S4x512x512 : S4x1x512.Broadcasts S4x512x512
  reduces_S4x512x512_S4x512 : S4x512x512.Reduces [2] S4x512
  shapeCasts_S4x512x1_S4x512 : S4x512x1.ShapeCasts S4x512
  shapeCasts_S4_S4x1 : S4.ShapeCasts S4x1
  concatenates_S4x1_S4x1_S4x126_S4x128_d1 : Shape.Concatenates [S4x1, S4x1, S4x126] S4x128 1
  shapeCasts_S4x128_S4x1x128 : S4x128.ShapeCasts S4x1x128
  inb_S4x1x128_S4x1x128_0_0_0 : ∀ a, (![0, 0, 0] : Fin 3 → Nat) a + S4x1x128.size a ≤ S4x1x128.size a
  h_S4x1x128 : 0 < S4x1x128.numel
  slices_S64x1x128_S64x1x1_0_0_0 : S64x1x128.Slices ![0, 0, 0] S64x1x1
  shapeCasts_S64x1x1_S64 : S64x1x1.ShapeCasts S64
  slices_S64x1x128_S64x1x1_0_0_1 : S64x1x128.Slices ![0, 0, 1] S64x1x1
  bcast_S_S64 : S_.BroadcastsInDim S64 (![] : Fin 0 → Fin S64.rank)
  reducesTo_S64_S_d0 : S64.ReducesTo [0] S_
  shapeCasts_S64x1_S64 : S64x1.ShapeCasts S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S64x512x3.size a
  hwx0_0 : ∀ i : grid0.Coords, EltTy.bits .f32 = 32 ∨ (Rect.block (s := S64x512x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S64x512x3.size a
  hwx0_1 : ∀ i : grid0.Coords, EltTy.bits .f32 = 32 ∨ (Rect.block (s := S64x512x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S64x512x1.size a
  hwx0_2 : ∀ i : grid0.Coords, EltTy.bits .f32 = 32 ∨ (Rect.block (s := S64x512x1) S4x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512.size a ≤ S64x1x512.size a
  hwx0_3 : ∀ i : grid0.Coords, EltTy.bits .f32 = 32 ∨ (Rect.block (s := S64x1x512) S4x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x512.size a ≤ S64x512x512.size a
  hwx0_4 : ∀ i : grid0.Coords, EltTy.bits .f32 = 32 ∨ (Rect.block (s := S64x512x512) S4x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x512.size a ≤ S64x512x512.size a
  hwx0_5 : ∀ i : grid0.Coords, EltTy.bits .f32 = 32 ∨ (Rect.block (s := S64x512x512) S4x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x128.size a ≤ S64x1x128.size a
  hwx0_6 : ∀ i : grid0.Coords, EltTy.bits .f32 = 32 ∨ (Rect.block (s := S64x1x128) S4x1x128.size (cc0_transform_6 i) (hinb0_6 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S4x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S4x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x3 : Shape := ⟨3, ![64, 512, 3]⟩
abbrev S64x512x512 : Shape := ⟨3, ![64, 512, 512]⟩
abbrev S64x1 : Shape := ⟨2, ![64, 1]⟩
abbrev S64x512 : Shape := ⟨2, ![64, 512]⟩
abbrev S_ : Shape := ⟨0, ![]⟩
abbrev S64 : Shape := ⟨1, ![64]⟩
abbrev S64x512x1 : Shape := ⟨3, ![64, 512, 1]⟩
abbrev S64x1x512 : Shape := ⟨3, ![64, 1, 512]⟩

abbrev nBuf : Space → Nat
  | .hbm => 95
  | .vmem => 0
  | .smem => 0
  | _ => 0

abbrev bufTy : (tb : Table) → Fin (tcTables nBuf tb) → BufTy
  | .hbm, ⟨0, _⟩ => ⟨S64x512x3, .f32⟩
  | .hbm, ⟨1, _⟩ => ⟨S64x512x512, .f32⟩
  | .hbm, ⟨2, _⟩ => ⟨S64x1, .f32⟩
  | .hbm, ⟨3, _⟩ => ⟨S64x512x3, .f32⟩
  | .hbm, ⟨4, _⟩ => ⟨S64x512x512, .f32⟩
  | .hbm, ⟨5, _⟩ => ⟨S64x512, .i32⟩
  | .hbm, ⟨6, _⟩ => ⟨S64x512, .f32⟩
  | .hbm, ⟨7, _⟩ => ⟨S_, .f32⟩
  | .hbm, ⟨8, _⟩ => ⟨S64, .f32⟩
  | .hbm, ⟨9, _⟩ => ⟨S64x512x3, .f32⟩
  | .hbm, ⟨10, _⟩ => ⟨S64x512x3, .f32⟩
  | .hbm, ⟨11, _⟩ => ⟨S64x512x1, .f32⟩
  | .hbm, ⟨12, _⟩ => ⟨S64x512x3, .f32⟩
  | .hbm, ⟨13, _⟩ => ⟨S64x512x3, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64x512x1, .f32⟩
  | .hbm, ⟨24, _⟩ => ⟨S64x1x512, .f32⟩
  | .hbm, ⟨25, _⟩ => ⟨S64x512x512, .f32⟩
  | .hbm, ⟨26, _⟩ => ⟨S64x512x512, .f32⟩
  | .hbm, ⟨27, _⟩ => ⟨S64x512x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64x512x512, .f32⟩
  | .hbm, ⟨32, _⟩ => ⟨S64x512x512, .f32⟩
  | .hbm, ⟨33, _⟩ => ⟨S_, .f32⟩
  | .hbm, ⟨34, _⟩ => ⟨S64x512x512, .f32⟩
  | .hbm, ⟨35, _⟩ => ⟨S64x512x512, .f32⟩
  | .hbm, ⟨36, _⟩ => ⟨S64x512x512, .f32⟩
  | .hbm, ⟨37, _⟩ => ⟨S64x512x512, .f32⟩
  | .hbm, ⟨38, _⟩ => ⟨S_, .f32⟩
  | .hbm, ⟨39, _⟩ => ⟨S64x512x512, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S64x512x512, .f32⟩
  | .hbm, ⟨44, _⟩ => ⟨S64x512x512, .f32⟩
  | .hbm, ⟨45, _⟩ => ⟨S64x512x512, .f32⟩
  | .hbm, ⟨46, _⟩ => ⟨S64x512x512, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .i1⟩
  | .hbm, ⟨57, _⟩ => ⟨S64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i1⟩
  | .hbm, ⟨64, _⟩ => ⟨S64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .i1⟩
  | .hbm, ⟨73, _⟩ => ⟨S64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S64x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_v42 : Ref sig .tc := ⟨.hbm, 67, rfl⟩
abbrev main_cst_13 : Ref sig .tc := ⟨.hbm, 68, rfl⟩
abbrev main_call1_v0 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_v46 : Ref sig .tc := ⟨.hbm, 75, rfl⟩
abbrev main_v47 : Ref sig .tc := ⟨.hbm, 76, rfl⟩
abbrev main_cst_16 : Ref sig .tc := ⟨.hbm, 77, rfl⟩
abbrev main_call2_v0 : Ref sig .tc := ⟨.hbm, 78, rfl⟩
abbrev main_v48 : Ref sig .tc := ⟨.hbm, 79, rfl⟩
abbrev main_v49 : Ref sig .tc := ⟨.hbm, 80, rfl⟩
abbrev main_v51 : Ref sig .tc := ⟨.hbm, 81, rfl⟩
abbrev main_v52 : Ref sig .tc := ⟨.hbm, 82, rfl⟩
abbrev main_cst_17 : Ref sig .tc := ⟨.hbm, 83, rfl⟩
abbrev main_v53 : Ref sig .tc := ⟨.hbm, 84, rfl⟩
abbrev main_cst_18 : Ref sig .tc := ⟨.hbm, 85, rfl⟩
abbrev main_v54 : Ref sig .tc := ⟨.hbm, 86, rfl⟩
abbrev main_cst_19 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_cst_21 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]

class Facts₀ : Prop where
  reducesTo_S64x512_S64_d1 : S64x512.ReducesTo [1] S64
  h_S_ : 0 < S_.numel
  bcast_S64x512_S64x512x1_0_1 : S64x512.BroadcastsInDim S64x512x1 (![0, 1] : Fin 2 → Fin S64x512x1.rank)
  bcast_S64x512x1_S64x512x3_0_1_2 : S64x512x1.BroadcastsInDim S64x512x3 (![0, 1, 2] : Fin 3 → Fin S64x512x3.rank)
  reducesTo_S64x512x3_S64_d1_2 : S64x512x3.ReducesTo [1, 2] S64
  bcast_S_S64 : S_.BroadcastsInDim S64 (![] : Fin 0 → Fin S64.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  reducesTo_S64x512x512_S64_d1_2 : S64x512x512.ReducesTo [1, 2] S64
  reducesTo_S64_S_d0 : S64.ReducesTo [0] S_
  shapeCasts_S64x1_S64 : S64x1.ShapeCasts S64

variable [Facts₀]

class Facts : Prop extends Facts₀ where

variable [Facts]
-- ==== Proof.Spec.lean ====
/-
  The two per-sample numerators as sums over abstract rows and columns, in the two arrangements the programs use,
  and the law that joins the arrangements.

  With P = min hi (max lo p) the clipped probability, L = log P and L1 = log1p(−P):
    the kernel's element   0 − (L1 + t·(L − L1))          (one product, no (1 − t))
    the reference's        −(t·L + (1 − t)·L1)
  agree for every FINITE target t, because lo > 0 and hi < 1 make P a real in (0, 1) whatever p is, so L and L1 are
  reals and the identity is one of real numbers; for an infinite t it fails (∞ − ∞), which is where the
  certificate's precondition is used. The kernel folds the column mask into the inner sum and the row mask into the
  outer one, ∑_i (∑_j e(i,j)·ν(j))·μ(i), where the reference multiplies by the outer product, ∑_i ∑_j e(i,j)·(μ(i)·ν(j)):
  equal for finite e, μ, ν by distributivity over the reals. The squared-error numerator is the same double sum on
  both sides and needs no law.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The clip bounds and the two other float literals of the loss, as the extended reals their patterns denote. -/
abbrev loB : EReal := Ideal.ofBits .f32 0x33D6BF95#32
abbrev hiB : EReal := Ideal.ofBits .f32 0x3F7FFFFE#32
abbrev oneB : EReal := Ideal.ofBits .f32 0x3F800000#32
abbrev zeroB : EReal := Ideal.ofBits .f32 0x00000000#32

theorem zeroB_eq : zeroB = 0 := Ideal.ofBits_zero_f32

theorem oneB_eq : oneB = 1 := by
  simp [oneB, Ideal.ofBits, Ideal.ieee, -EReal.coe_mul]; norm_num

/-- The lower clip bound is a positive real. -/
theorem loB_eq : ∃ r : ℝ, 0 < r ∧ loB = (r : EReal) := by
  refine ⟨14073749 * (2 : ℝ) ^ (-47 : ℤ), by positivity, ?_⟩
  simp [loB, Ideal.ofBits, Ideal.ieee, -EReal.coe_mul]

/-- The upper clip bound is a positive real below one. -/
theorem hiB_eq : ∃ r : ℝ, 0 < r ∧ r < 1 ∧ hiB = (r : EReal) := by
  refine ⟨16777214 * (2 : ℝ) ^ (-24 : ℤ), by positivity, by norm_num, ?_⟩
  simp [hiB, Ideal.ofBits, Ideal.ieee, -EReal.coe_mul]

/-- The clipped probability. -/
def clip (p : EReal) : EReal := min hiB (max loB p)

/-- The kernel's cross-entropy element. -/
def kelem (p t : EReal) : EReal :=
  zeroB - (Ideal.log1p (zeroB - clip p) + t * (Ideal.log (clip p) - Ideal.log1p (zeroB - clip p)))

/-- The reference's cross-entropy element. -/
def relem (p t : EReal) : EReal :=
  -(t * Ideal.log (clip p) + (oneB - t) * Ideal.log1p (-(clip p)))

/-- A finite sum of reals, cast. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Whatever `p` is, the clipped probability is a real strictly between 0 and 1. -/
theorem clip_real (p : EReal) : ∃ q : ℝ, 0 < q ∧ q < 1 ∧ clip p = (q : EReal) := by
  obtain ⟨lo, hlo, elo⟩ := loB_eq
  obtain ⟨hi, hhi, hhi1, ehi⟩ := hiB_eq
  unfold clip
  rw [elo, ehi]
  induction p using EReal.rec with
  | bot =>
    refine ⟨min hi lo, lt_min hhi hlo, lt_of_le_of_lt (min_le_left _ _) hhi1, ?_⟩
    rw [max_bot_right]
    exact (EReal.coe_strictMono.monotone.map_min).symm
  | top =>
    refine ⟨hi, hhi, hhi1, ?_⟩
    rw [max_top_right, min_top_right]
  | coe x =>
    refine ⟨min hi (max lo x), lt_min hhi (lt_max_of_lt_left hlo), lt_of_le_of_lt (min_le_left _ _) hhi1, ?_⟩
    rw [EReal.coe_strictMono.monotone.map_min, EReal.coe_strictMono.monotone.map_max]

/-- The two element forms agree at a finite target, and the common value is a real. -/
theorem kelem_eq_relem (p : EReal) (t : ℝ) : ∃ e : ℝ, kelem p (t : EReal) = (e : EReal) ∧ relem p (t : EReal) = (e : EReal) := by
  obtain ⟨q, hq0, hq1, eq⟩ := clip_real p
  have hL : Ideal.log (q : EReal) = (Real.log q : EReal) := by
    rw [Ideal.log_coe, if_neg (not_le.2 hq0)]
  have h1q : (0 : ℝ) < 1 - q := by linarith
  have hL1 : Ideal.log1p ((0 : EReal) - (q : EReal)) = (Real.log (1 - q) : EReal) := by
    unfold Ideal.log1p
    have : (1 : EReal) + ((0 : EReal) - (q : EReal)) = ((1 - q : ℝ) : EReal) := by
      rw [← EReal.coe_zero, ← EReal.coe_sub, ← EReal.coe_one, ← EReal.coe_add]; congr 1; ring
    rw [this, Ideal.log_coe, if_neg (not_le.2 h1q)]
  have hL1' : Ideal.log1p (-(q : EReal)) = (Real.log (1 - q) : EReal) := by
    rw [← hL1]; congr 1; rw [zero_sub]
  refine ⟨-(Real.log (1 - q) + t * (Real.log q - Real.log (1 - q))), ?_, ?_⟩
  · unfold kelem
    rw [eq, zeroB_eq, hL, hL1]
    norm_cast
    ring
  · unfold relem
    rw [eq, oneB_eq, hL, hL1']
    norm_cast
    ring

/-- The masked squared-error numerator of one sample. -/
def seSum {N D : Nat} (x0 x3 : Fin N → Fin D → EReal) (μ : Fin N → EReal) : EReal :=
  ∑ n : Fin N, ∑ d : Fin D, ((x0 n d - x3 n d) * (x0 n d - x3 n d)) * μ n

/-- The masked cross-entropy numerator of one sample, the masks folded into the two sums one after the other. -/
def edSumK {N M : Nat} (p t : Fin N → Fin M → EReal) (μ : Fin N → EReal) (ν : Fin M → EReal) : EReal :=
  ∑ i : Fin N, (∑ j : Fin M, kelem (p i j) (t i j) * ν j) * μ i

/-- The same numerator with the masks' outer product under one double sum. -/
def edSumR {N M : Nat} (p t : Fin N → Fin M → EReal) (μ : Fin N → EReal) (ν : Fin M → EReal) : EReal :=
  ∑ i : Fin N, ∑ j : Fin M, relem (p i j) (t i j) * (μ i * ν j)

/-- The two arrangements of the cross-entropy numerator agree when the targets and the masks are finite. -/
theorem edSumK_eq_edSumR {N M : Nat} (p : Fin N → Fin M → EReal) (t : Fin N → Fin M → ℝ) (μ : Fin N → ℝ) (ν : Fin M → ℝ) :
    edSumK p (fun i j => (t i j : EReal)) (fun i => (μ i : EReal)) (fun j => (ν j : EReal))
      = edSumR p (fun i j => (t i j : EReal)) (fun i => (μ i : EReal)) (fun j => (ν j : EReal)) := by
  choose e hk hr using fun i j => kelem_eq_relem (p i j) (t i j)
  unfold edSumK edSumR
  simp only [hk, hr, ← EReal.coe_mul, coe_sum]
  congr 1
  refine Finset.sum_congr rfl fun i _ => ?_
  rw [Finset.sum_mul]
  refine Finset.sum_congr rfl fun j _ => ?_
  ring

/-- Sample `b`'s squared-error numerator from arrays [B, N, D], [B, N, D] and the row mask [B, N, 1]. -/
def seOf {B N D : Nat} (a0 a3 : (⟨3, ![B, N, D]⟩ : Shape).Idx → EReal) (mrow : (⟨3, ![B, N, 1]⟩ : Shape).Idx → EReal)
    (b : Fin B) : EReal :=
  seSum (fun n d => a0 (ix3 b n d)) (fun n d => a3 (ix3 b n d)) (fun n => mrow (ix3 b n 0))

/-- Sample `b`'s cross-entropy numerator, masks folded in, from arrays [B, N, M], [B, N, M], the row mask [B, N, 1] and
    the column mask [B, 1, M]. -/
def edOf {B N M : Nat} (a1 a4 : (⟨3, ![B, N, M]⟩ : Shape).Idx → EReal) (mrow : (⟨3, ![B, N, 1]⟩ : Shape).Idx → EReal)
    (mcol : (⟨3, ![B, 1, M]⟩ : Shape).Idx → EReal) (b : Fin B) : EReal :=
  edSumK (fun i j => a1 (ix3 b i j)) (fun i j => a4 (ix3 b i j)) (fun i => mrow (ix3 b i 0)) (fun j => mcol (ix3 b 0 j))

end Cert.Spec

end
-- ==== Proof.LibSums.lean ====
/-
  Sums read at an index, at the extended reals, generic in the extents.

  * a vector sum over the last axis of a rank-3 block [a, b, c], read at (r, n), is the sum over d of the block at (r, n, d);
  * a vector sum over the last axis of a rank-2 block [a, b], read at r, is the sum over n of the block at (r, n);
  * the host's sum of a rank-3 array [a, b, c] over its axes 1 and 2 together, read at r, is the initial value plus the
    double sum over (n, d) of the array at (r, n, d): the indices that reduce to r are exactly those whose leading
    coordinate is r, and (n, d) ↦ (r, n, d) enumerates them once each.
-/
import Idealize.ShloMosaic.PureOps.Ideal.Laws
import Idealize.ShloMosaic.Lib.ValueIdx

noncomputable section

namespace Cert.LibSums

open Idealize.ShloMosaic Idealize.ShloMosaic.ValueIdx
open scoped BigOperators

/-- A vector sum over the last axis of a rank-3 block, read at `(r, n)`. -/
theorem sum_last3 {a b c : Nat} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (r : Fin a) (n : Fin b) :
    multiReduction .add [2] ⟨2, ![a, b]⟩ src acc h hφ hacc (ix2 r n) = ∑ d : Fin c, src (ix3 r n d) := by
  refine (Ideal.multiReduction_add_single src acc h hφ hacc (ix2 r n)).trans ?_
  refine Finset.sum_congr rfl fun d _ => congrArg src ?_
  funext x; apply Fin.ext
  match x with
  | ⟨0, _⟩ => rfl
  | ⟨1, _⟩ => rfl
  | ⟨2, _⟩ => rfl

/-- A vector sum over the last axis of a rank-2 block, read at `r`. -/
theorem sum_last2 {a b : Nat} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ n : Fin b, src (ix2 r n) := by
  refine (Ideal.multiReduction_add_single src acc h hφ hacc (ix1 r)).trans ?_
  refine Finset.sum_congr rfl fun n _ => congrArg src ?_
  funext x; apply Fin.ext
  match x with
  | ⟨0, _⟩ => rfl
  | ⟨1, _⟩ => rfl

/-- The host's sum of a rank-3 array over its axes 1 and 2 together, read at `r`. -/
theorem hostSum_axes12 {a b c : Nat} (h' : (⟨3, ![a, b, c]⟩ : Shape).ReducesTo [1, 2] ⟨1, ![a]⟩)
    (x : (⟨3, ![a, b, c]⟩ : Shape).Idx → EReal) (init : EReal) (r : Fin a) :
    Ideal.hostReduceAdd h' x init (ix1 r) = init + ∑ n : Fin b, ∑ d : Fin c, x (ix3 r n d) := by
  unfold Ideal.hostReduceAdd
  refine congrArg (init + ·) ?_
  have hd : ∀ i : (⟨3, ![a, b, c]⟩ : Shape).Idx, h'.drop i = ix1 r ↔ i 0 = r := by
    intro i
    have e : (h'.drop i 0 : Nat) = i 0 := rfl
    constructor
    · intro hh
      apply Fin.ext
      rw [← e, hh]
      rfl
    · intro hh
      funext y
      apply Fin.ext
      match y with
      | ⟨0, _⟩ => exact e.trans (congrArg Fin.val hh)
  rw [← Finset.sum_product']
  refine Finset.sum_nbij' (fun i => ((i 1 : Fin b), (i 2 : Fin c))) (fun p => ix3 r p.1 p.2) ?_ ?_ ?_ ?_ ?_
  · intro i _; exact Finset.mem_product.2 ⟨Finset.mem_univ _, Finset.mem_univ _⟩
  · intro p _
    exact Finset.mem_filter.2 ⟨Finset.mem_univ _, (hd _).2 rfl⟩
  · intro i hi
    have h0 : i 0 = r := (hd i).1 (Finset.mem_filter.1 hi).2
    funext y
    match y with
    | ⟨0, _⟩ => exact h0.symm
    | ⟨1, _⟩ => rfl
    | ⟨2, _⟩ => rfl
  · intro p _; rfl
  · intro i hi
    have h0 : i 0 = r := (hd i).1 (Finset.mem_filter.1 hi).2
    refine congrArg x ?_
    funext y
    match y with
    | ⟨0, _⟩ => exact h0
    | ⟨1, _⟩ => rfl
    | ⟨2, _⟩ => rfl

end Cert.LibSums

end
-- ==== Proof.KernelBody.lean ====
/-
  What the kernel body computes from its six loaded blocks, read at an index.

  For local sample `r` of a block of four samples: the first stored lane is the squared-error numerator of that sample
  (a sum over the three coordinates, then over the 512 nodes, of the squared difference times the row mask), the second
  is the cross-entropy numerator (a sum over the columns of the element times the column mask, times the row mask,
  summed over the rows), and the other 126 lanes are zero: the [4, 1, 128] block is the concatenation of those three
  pieces along the lane axis with a unit middle axis inserted.
-/
import proofs.«146693_j58007828300462_2_alg».proof.Proof.Gen.KernelIdeal.Skeleton
import proofs.«146693_j58007828300462_2_alg».proof.Proof.Spec
import proofs.«146693_j58007828300462_2_alg».proof.Proof.LibSums
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Spec
open scoped BigOperators

/-- The squared-error lane of local sample `r`. -/
theorem pay3_apply (x0 x1 : Vec Ideal S4x512x3 .f32) (x2 : Vec Ideal S4x512x1 .f32) (r : Fin 4) :
    k0_pay3 (F := Ideal) x0 x1 x2 (ix1 r) = seOf x0 x1 x2 r := by
  unfold k0_pay3 k0_pay2 seOf seSum
  refine (LibSums.sum_last2 _ _ _ _ _ r).trans ?_
  refine Finset.sum_congr rfl fun n _ => ?_
  refine (LibSums.sum_last3 _ _ _ _ _ r n).trans ?_
  refine Finset.sum_congr rfl fun d _ => ?_
  refine (mulf_apply _ _ (ix3 r n d)).trans ?_
  refine congrArg₂ (· * ·) rfl ?_
  rw [shapeCast_self]
  exact broadcastTo_apply x2 _ (ix3 r n d) (ix3 r n 0)
    (fun a => by match a with | ⟨0, _⟩ => rfl | ⟨1, _⟩ => rfl | ⟨2, _⟩ => rfl)

/-- The cross-entropy lane of local sample `r`. -/
theorem pay4_apply (x2 : Vec Ideal S4x512x1 .f32) (x4 x5 : Vec Ideal S4x512x512 .f32) (x3 : Vec Ideal S4x1x512 .f32)
    (r : Fin 4) : k0_pay4 (F := Ideal) x2 x4 x5 x3 (ix1 r) = edOf x4 x5 x2 x3 r := by
  unfold k0_pay4 k0_pay2 edOf edSumK
  refine (LibSums.sum_last2 _ _ _ _ _ r).trans ?_
  refine Finset.sum_congr rfl fun i _ => ?_
  refine (mulf_apply _ _ (ix2 r i)).trans ?_
  refine congrArg₂ (· * ·) ?_ ?_
  · refine (LibSums.sum_last3 _ _ _ _ _ r i).trans ?_
    refine Finset.sum_congr rfl fun j _ => ?_
    refine (mulf_apply _ _ (ix3 r i j)).trans ?_
    refine congrArg₂ (· * ·) rfl ?_
    rw [shapeCast_self]
    exact broadcastTo_apply x3 _ (ix3 r i j) (ix3 r 0 j)
      (fun a => by match a with | ⟨0, _⟩ => rfl | ⟨1, _⟩ => rfl | ⟨2, _⟩ => rfl)
  · rw [shapeCast_self]
    refine shapeCast_apply x2 _ (ix2 r i) (ix3 r i 0) ?_
    rw [Shape.rowMajor_val_three, Shape.rowMajor_val_two]
    show (r.val * 512 + i.val) * 1 + 0 = r.val * 512 + i.val
    omega

/-- The stored block at local sample `r`, lane `c`. -/
theorem pay1_apply (v9 v32 : FVec Ideal S4 .f32) (r : Fin 4) (z : Fin 1) (c : Fin 128) :
    k0_pay1 (F := Ideal) v9 v32 (ix3 r z c)
      = if c.val = 0 then v9 (ix1 r) else if c.val = 1 then v32 (ix1 r) else zeroB := by
  unfold k0_pay1
  have hz : z.val = 0 := by omega
  refine (shapeCast_apply _ _ (ix3 r z c) (ix2 r c) ?_).trans ?_
  · rw [Shape.rowMajor_val_two, Shape.rowMajor_val_three]
    show r.val * 128 + c.val = (r.val * 1 + z.val) * 128 + c.val
    omega
  by_cases h0 : c.val = 0
  · rw [if_pos h0]
    refine (concatenate_apply_piece (t := S4x128) (1 : Fin 2) [⟨S4x1, shapeCast S4x1 v9 shapeCasts_S4_S4x1⟩, ⟨S4x1, shapeCast S4x1 v32 shapeCasts_S4_S4x1⟩, ⟨S4x126, broadcast S4x126 (Scalar.ofBits (F := Ideal) .f32 0x00000000#32)⟩] concatenates_S4x1_S4x1_S4x126_S4x128_d1 (ix2 r c) 0 (by simp) S4x1 _ rfl rfl 0 rfl (ix2 r 0) ?_ ?_).trans ?_
    · intro b hb
      match b with
      | ⟨0, _⟩ => rfl
      | ⟨1, _⟩ => exact absurd rfl hb
    · show 0 + 0 = c.val
      omega
    · refine shapeCast_apply v9 _ (ix2 r 0) (ix1 r) ?_
      rw [Shape.rowMajor_val_one, Shape.rowMajor_val_two]
      show r.val = r.val * 1 + 0
      omega
  · rw [if_neg h0]
    by_cases h1 : c.val = 1
    · rw [if_pos h1]
      refine (concatenate_apply_piece (t := S4x128) (1 : Fin 2) [⟨S4x1, shapeCast S4x1 v9 shapeCasts_S4_S4x1⟩, ⟨S4x1, shapeCast S4x1 v32 shapeCasts_S4_S4x1⟩, ⟨S4x126, broadcast S4x126 (Scalar.ofBits (F := Ideal) .f32 0x00000000#32)⟩] concatenates_S4x1_S4x1_S4x126_S4x128_d1 (ix2 r c) 1 (by simp) S4x1 _ rfl rfl 1 rfl (ix2 r 0) ?_ ?_).trans ?_
      · intro b hb
        match b with
        | ⟨0, _⟩ => rfl
        | ⟨1, _⟩ => exact absurd rfl hb
      · show 1 + 0 = c.val
        omega
      · refine shapeCast_apply v32 _ (ix2 r 0) (ix1 r) ?_
        rw [Shape.rowMajor_val_one, Shape.rowMajor_val_two]
        show r.val = r.val * 1 + 0
        omega
    · rw [if_neg h1]
      have hc : c.val - 2 < 126 := by have := c.isLt; omega
      exact concatenate_apply_piece (t := S4x128) (1 : Fin 2) [⟨S4x1, shapeCast S4x1 v9 shapeCasts_S4_S4x1⟩, ⟨S4x1, shapeCast S4x1 v32 shapeCasts_S4_S4x1⟩, ⟨S4x126, broadcast S4x126 (Scalar.ofBits (F := Ideal) .f32 0x00000000#32)⟩] concatenates_S4x1_S4x1_S4x126_S4x128_d1 (ix2 r c) 2 (by simp) S4x126 _ rfl rfl 2 rfl
        (ix2 r ⟨c.val - 2, hc⟩)
        (fun b hb => by
          match b with
          | ⟨0, _⟩ => rfl
          | ⟨1, _⟩ => exact absurd rfl hb)
        (by show 2 + (c.val - 2) = c.val; omega)

end Cert.KernelIdeal.Body

end
-- ==== Proof.KernelArray.lean ====
/-
  The kernel's output array after the run, as one function of the arrays the region finds.

  The grid has sixteen points; point `t` stages rows 4t … 4t+3 of every operand (the other two block indices are zero)
  and writes back rows 4t … 4t+3 of the [64, 1, 128] output. So row `b` of the output is written once, by point b / 4,
  and holds in lane 0 the squared-error numerator of sample `b`, in lane 1 its cross-entropy numerator, and zeros in
  the other lanes — each numerator the block-level one (KernelBody.lean) with the block's rows read as rows
  4t + r of the whole arrays.
-/
import proofs.«146693_j58007828300462_2_alg».proof.Proof.Gen.KernelIdeal.Frame
import proofs.«146693_j58007828300462_2_alg».proof.Proof.KernelBody

set_option maxRecDepth 16384

noncomputable section

namespace Cert.KernelIdeal.Arr

open Cert.KernelIdeal Cert.KernelIdeal.Gen Cert.KernelIdeal.Body Cert.Spec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

theorem hz : (![0, 0, 0] : Fin 3 → Nat) = fun _ => 0 := funext fun a => by fin_cases a <;> rfl

/-- A per-sample quantity read at a natural number (zero outside the 64 samples). -/
def atNat (f : Fin 64 → EReal) (k : Nat) : EReal := if h : k < 64 then f ⟨k, h⟩ else 0

/-- The output array: lane 0 the first quantity of the row's sample, lane 1 the second, zero elsewhere. -/
def GK (se ed : Fin 64 → EReal) : S64x1x128.Idx → EReal := fun i =>
  if (i 2).val = 0 then atNat se (i 0).val else if (i 2).val = 1 then atNat ed (i 0).val else zeroB

/-- Every window's block index at point `t` is (t, 0, 0): decided over the sixteen points. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_3.index t (0 : Fin 3) = t.val
    ∧ win0_3.index t (1 : Fin 3) = 0
    ∧ win0_3.index t (2 : Fin 3) = 0
    ∧ win0_4.index t (0 : Fin 3) = t.val
    ∧ win0_4.index t (1 : Fin 3) = 0
    ∧ win0_4.index t (2 : Fin 3) = 0
    ∧ win0_5.index t (0 : Fin 3) = t.val
    ∧ win0_5.index t (1 : Fin 3) = 0
    ∧ win0_5.index t (2 : Fin 3) = 0
    ∧ win0_6.index t (0 : Fin 3) = t.val
    ∧ win0_6.index t (1 : Fin 3) = 0
    ∧ win0_6.index t (2 : Fin 3) = 0 :=
  (by decide +kernel : ∀ t : Fin grid0.N, _)

theorem t_lt (t : Fin cfg0.N) : t.val < 16 := lt_of_lt_of_eq t.isLt N_0

/-- Row `r` of point `t`'s block of the first coordinate array is row 4t + r of the array. -/
theorem rd0 (c : Dev nD) (t : Fin cfg0.N) (r : Fin 4) (n : Fin 512) (d : Fin 3) (hlt : t.val * 4 + r.val < 64) :
    iblk m c 0 t (ix3 r n d) = V m c main_arg0 (ix3 ⟨t.val * 4 + r.val, hlt⟩ n d) := by
  obtain ⟨e0, e1, e2, -⟩ := idx_facts t
  show V m c main_arg0 (((cfg0.win 0).blk t).view.emb (ix3 r n d)) = _
  refine congrArg (V m c main_arg0) ?_
  funext a; apply Fin.ext
  match a with
  | ⟨0, _⟩ => show win0_0.index t (0 : Fin 3) * 4 + 1 * r.val = t.val * 4 + r.val; rw [e0]; omega
  | ⟨1, _⟩ => show win0_0.index t (1 : Fin 3) * 512 + 1 * n.val = n.val; rw [e1]; omega
  | ⟨2, _⟩ => show win0_0.index t (2 : Fin 3) * 3 + 1 * d.val = d.val; rw [e2]; omega

/-- The same for the second coordinate array. -/
theorem rd1 (c : Dev nD) (t : Fin cfg0.N) (r : Fin 4) (n : Fin 512) (d : Fin 3) (hlt : t.val * 4 + r.val < 64) :
    iblk m c 1 t (ix3 r n d) = V m c main_arg3 (ix3 ⟨t.val * 4 + r.val, hlt⟩ n d) := by
  obtain ⟨-, -, -, e0, e1, e2, -⟩ := idx_facts t
  show V m c main_arg3 (((cfg0.win 1).blk t).view.emb (ix3 r n d)) = _
  refine congrArg (V m c main_arg3) ?_
  funext a; apply Fin.ext
  match a with
  | ⟨0, _⟩ => show win0_1.index t (0 : Fin 3) * 4 + 1 * r.val = t.val * 4 + r.val; rw [e0]; omega
  | ⟨1, _⟩ => show win0_1.index t (1 : Fin 3) * 512 + 1 * n.val = n.val; rw [e1]; omega
  | ⟨2, _⟩ => show win0_1.index t (2 : Fin 3) * 3 + 1 * d.val = d.val; rw [e2]; omega

/-- The row mask. -/
theorem rd2 (c : Dev nD) (t : Fin cfg0.N) (r : Fin 4) (n : Fin 512) (z : Fin 1) (hlt : t.val * 4 + r.val < 64) :
    iblk m c 2 t (ix3 r n z) = V m c main_v2 (ix3 ⟨t.val * 4 + r.val, hlt⟩ n z) := by
  obtain ⟨-, -, -, -, -, -, e0, e1, e2, -⟩ := idx_facts t
  show V m c main_v2 (((cfg0.win 2).blk t).view.emb (ix3 r n z)) = _
  refine congrArg (V m c main_v2) ?_
  funext a; apply Fin.ext
  match a with
  | ⟨0, _⟩ => show win0_2.index t (0 : Fin 3) * 4 + 1 * r.val = t.val * 4 + r.val; rw [e0]; omega
  | ⟨1, _⟩ => show win0_2.index t (1 : Fin 3) * 512 + 1 * n.val = n.val; rw [e1]; omega
  | ⟨2, _⟩ => show win0_2.index t (2 : Fin 3) * 1 + 1 * z.val = z.val; rw [e2]; omega

/-- The column mask. -/
theorem rd3 (c : Dev nD) (t : Fin cfg0.N) (r : Fin 4) (z : Fin 1) (j : Fin 512) (hlt : t.val * 4 + r.val < 64) :
    iblk m c 3 t (ix3 r z j) = V m c main_v3 (ix3 ⟨t.val * 4 + r.val, hlt⟩ z j) := by
  obtain ⟨-, -, -, -, -, -, -, -, -, e0, e1, e2, -⟩ := idx_facts t
  show V m c main_v3 (((cfg0.win 3).blk t).view.emb (ix3 r z j)) = _
  refine congrArg (V m c main_v3) ?_
  funext a; apply Fin.ext
  match a with
  | ⟨0, _⟩ => show win0_3.index t (0 : Fin 3) * 4 + 1 * r.val = t.val * 4 + r.val; rw [e0]; omega
  | ⟨1, _⟩ => show win0_3.index t (1 : Fin 3) * 1 + 1 * z.val = z.val; rw [e1]; omega
  | ⟨2, _⟩ => show win0_3.index t (2 : Fin 3) * 512 + 1 * j.val = j.val; rw [e2]; omega

/-- The predicted adjacency. -/
theorem rd4 (c : Dev nD) (t : Fin cfg0.N) (r : Fin 4) (i j : Fin 512) (hlt : t.val * 4 + r.val < 64) :
    iblk m c 4 t (ix3 r i j) = V m c main_arg1 (ix3 ⟨t.val * 4 + r.val, hlt⟩ i j) := by
  obtain ⟨-, -, -, -, -, -, -, -, -, -, -, -, e0, e1, e2, -⟩ := idx_facts t
  show V m c main_arg1 (((cfg0.win 4).blk t).view.emb (ix3 r i j)) = _
  refine congrArg (V m c main_arg1) ?_
  funext a; apply Fin.ext
  match a with
  | ⟨0, _⟩ => show win0_4.index t (0 : Fin 3) * 4 + 1 * r.val = t.val * 4 + r.val; rw [e0]; omega
  | ⟨1, _⟩ => show win0_4.index t (1 : Fin 3) * 512 + 1 * i.val = i.val; rw [e1]; omega
  | ⟨2, _⟩ => show win0_4.index t (2 : Fin 3) * 512 + 1 * j.val = j.val; rw [e2]; omega

/-- The target adjacency. -/
theorem rd5 (c : Dev nD) (t : Fin cfg0.N) (r : Fin 4) (i j : Fin 512) (hlt : t.val * 4 + r.val < 64) :
    iblk m c 5 t (ix3 r i j) = V m c main_arg4 (ix3 ⟨t.val * 4 + r.val, hlt⟩ i j) := by
  obtain ⟨-, -, -, -, -, -, -, -, -, -, -, -, -, -, -, e0, e1, e2, -⟩ := idx_facts t
  show V m c main_arg4 (((cfg0.win 5).blk t).view.emb (ix3 r i j)) = _
  refine congrArg (V m c main_arg4) ?_
  funext a; apply Fin.ext
  match a with
  | ⟨0, _⟩ => show win0_5.index t (0 : Fin 3) * 4 + 1 * r.val = t.val * 4 + r.val; rw [e0]; omega
  | ⟨1, _⟩ => show win0_5.index t (1 : Fin 3) * 512 + 1 * i.val = i.val; rw [e1]; omega
  | ⟨2, _⟩ => show win0_5.index t (2 : Fin 3) * 512 + 1 * j.val = j.val; rw [e2]; omega

/-- The squared-error numerator of every sample, from the arrays the region finds. -/
def seK (c : Dev nD) : Fin 64 → EReal := seOf (V m c main_arg0) (V m c main_arg3) (V m c main_v2)

/-- The cross-entropy numerator of every sample, from the arrays the region finds. -/
def edK (c : Dev nD) : Fin 64 → EReal := edOf (V m c main_arg1) (V m c main_arg4) (V m c main_v2) (V m c main_v3)

/-- Local sample `r` of point `t`'s blocks is sample 4t + r: the squared-error numerator. -/
theorem se_blk (c : Dev nD) (t : Fin cfg0.N) (r : Fin 4) :
    seOf (iblk m c 0 t) (iblk m c 1 t) (iblk m c 2 t) r = atNat (seK m c) (t.val * 4 + r.val) := by
  have hlt : t.val * 4 + r.val < 64 := by have := t_lt t; have := r.isLt; omega
  unfold atNat
  rw [dif_pos hlt]
  unfold seK seOf seSum
  refine Finset.sum_congr rfl fun n _ => Finset.sum_congr rfl fun d _ => ?_
  beta_reduce
  rw [rd0 m c t r n d hlt, rd1 m c t r n d hlt, rd2 m c t r n 0 hlt]

/-- Local sample `r` of point `t`'s blocks is sample 4t + r: the cross-entropy numerator. -/
theorem ed_blk (c : Dev nD) (t : Fin cfg0.N) (r : Fin 4) :
    edOf (iblk m c 4 t) (iblk m c 5 t) (iblk m c 2 t) (iblk m c 3 t) r = atNat (edK m c) (t.val * 4 + r.val) := by
  have hlt : t.val * 4 + r.val < 64 := by have := t_lt t; have := r.isLt; omega
  unfold atNat
  rw [dif_pos hlt]
  unfold edK edOf edSumK
  refine Finset.sum_congr rfl fun i _ => ?_
  beta_reduce
  rw [rd2 m c t r i 0 hlt]
  refine congrArg (· * _) ?_
  refine Finset.sum_congr rfl fun j _ => ?_
  beta_reduce
  rw [rd4 m c t r i j hlt, rd5 m c t r i j hlt, rd3 m c t r 0 j hlt]

/-- What point `t` writes back is block `t` of the output function. -/
theorem flushed_eq (c : Dev nD) (t : Fin cfg0.N) :
    (dats m 0 c).flushed 6 t = ((cfg0.win 6).blk t).view.read (Elt Ideal) (GK (seK m c) (edK m c)) := by
  show (cfg0.win 6).cut (grid0.coords t) ((dats m 0 c).after 6 t) = _
  rw [after0_6]
  unfold out0_6
  rw [View.canon_unit_zero hz]
  simp only [View.ld_unit_zero (S := S4x512x3) hz, View.ld_unit_zero (S := S4x512x1) hz,
    View.ld_unit_zero (S := S4x512x512) hz, View.ld_unit_zero (S := S4x1x512) hz]
  obtain ⟨-, -, -, -, -, -, -, -, -, -, -, -, -, -, -, -, -, -, e0, e1, e2⟩ := idx_facts t
  funext y
  obtain ⟨r, z, l, rfl⟩ : ∃ (r : Fin 4) (z : Fin 1) (l : Fin 128), y = ix3 r z l := ⟨y 0, y 1, y 2, eq_ix3 y⟩
  refine (pay1_apply _ _ r z l).trans ?_
  rw [pay3_apply, pay4_apply, se_blk m c t r, ed_blk m c t r]
  show _ = GK (seK m c) (edK m c) (((cfg0.win 6).blk t).view.emb (ix3 r z l))
  have h0 : ((((cfg0.win 6).blk t).view.emb (ix3 r z l)) 0).val = t.val * 4 + r.val := by
    show win0_6.index t (0 : Fin 3) * 4 + 1 * r.val = _; rw [e0]; omega
  have h2 : ((((cfg0.win 6).blk t).view.emb (ix3 r z l)) 2).val = l.val := by
    show win0_6.index t (2 : Fin 3) * 128 + 1 * l.val = _; rw [e2]; omega
  unfold GK
  rw [h0, h2]

/-- An index of the output is in point `t`'s block iff each coordinate is in the block's range on its axis. -/
theorem mem_blk (t : Fin cfg0.N) (i : S64x1x128.Idx) :
    i ∈ ((cfg0.win 6).blk t).view.set ↔ ∀ a : Fin 3, win0_6.index t a * S4x1x128.size a ≤ (i a).val ∧ (i a).val < win0_6.index t a * S4x1x128.size a + S4x1x128.size a := by
  show i ∈ ((View.whole main_v4).slice (win0_6.rect t)).set ↔ _
  rw [View.set_slice_whole, Rect.mem_set_unit]
  exact Iff.rfl

/-- Every index of the output is in the block of point (row / 4). -/
theorem cover (i : S64x1x128.Idx) : ∃ t : Fin cfg0.N, (cfg0.win 6).flush t = true ∧ i ∈ ((cfg0.win 6).blk t).view.set := by
  have hi0 : (i 0).val < 64 := (i 0).isLt
  have hi1 : (i 1).val < 1 := (i 1).isLt
  have hi2 : (i 2).val < 128 := (i 2).isLt
  have hN : (i 0).val / 4 < cfg0.N := lt_of_lt_of_eq (by omega : (i 0).val / 4 < 16) N_0.symm
  refine ⟨⟨(i 0).val / 4, hN⟩, flush0_6 _, ?_⟩
  obtain ⟨-, -, -, -, -, -, -, -, -, -, -, -, -, -, -, -, -, -, e0, e1, e2⟩ := idx_facts ⟨(i 0).val / 4, hN⟩
  rw [mem_blk]
  intro a
  match a with
  | ⟨0, _⟩ =>
    show win0_6.index _ (0 : Fin 3) * 4 ≤ (i 0).val ∧ (i 0).val < win0_6.index _ (0 : Fin 3) * 4 + 4
    rw [e0]; show (i 0).val / 4 * 4 ≤ (i 0).val ∧ (i 0).val < (i 0).val / 4 * 4 + 4; omega
  | ⟨1, _⟩ =>
    show win0_6.index _ (1 : Fin 3) * 1 ≤ (i 1).val ∧ (i 1).val < win0_6.index _ (1 : Fin 3) * 1 + 1
    rw [e1]; omega
  | ⟨2, _⟩ =>
    show win0_6.index _ (2 : Fin 3) * 128 ≤ (i 2).val ∧ (i 2).val < win0_6.index _ (2 : Fin 3) * 128 + 128
    rw [e2]; omega

/-- The output array after the run. -/
theorem final (c : Dev nD) : (dats m 0 c).arrAt 6 cfg0.N = GK (seK m c) (edK m c) :=
  (dats m 0 c).arrAt_eq_of_cover 6 (GK (seK m c) (edK m c)) (fun t _ => flushed_eq m c t) cover

end Cert.KernelIdeal.Arr

end
-- ==== Proof.Tail.lean ====
/-
  The part of the loss that both programs compute in the same way, as functions of what goes into it.

  From the per-sample numerators `se b` (masked squared coordinate error) and `ed b` (masked cross-entropy), the
  per-sample node count `n b` and the predicted counts `a2`:
    valid b     = 1 if n b > 0 else 0,            vc = ∑_b valid b,
    coord loss  = if vc > 0 then (∑_b (se b / max (3·n b) 1) · valid b) / max vc 1 else 0,
    edge loss   = if vc > 0 then (∑_b (ed b / max (n b · n b) 1) · valid b) / max vc 1 else 0,
    count loss  = (∑_b (a2 b − n b)²) / 64,
    total       = 1·coord + 1·edge + 0.1·count   (0.1 the f32 nearest to one tenth, as both programs spell it).
  The certificate never opens these: it shows that the two programs feed them equal `se`, `ed`, `n` and `a2`.
-/
import Idealize.ShloMosaic.PureOps
import Idealize.ShloMosaic.PureOps.Ideal

noncomputable section

namespace Cert.Tail

open Idealize.ShloMosaic

abbrev T_ : Shape := ⟨0, ![]⟩
abbrev T64 : Shape := ⟨1, ![64]⟩
abbrev T64x1 : Shape := ⟨2, ![64, 1]⟩

variable (hpos : 0 < T_.numel) (hb : T_.BroadcastsInDim T64 (![] : Fin 0 → Fin T64.rank))
  (hr : T64.ReducesTo [0] T_) (hc : T64x1.ShapeCasts T64)

/-- The indicator of a sample that has at least one node. -/
def valid (n : FVec Ideal T64 .f32) : FVec Ideal T64 .f32 :=
  uitofp .f32 (cmpf (F := Ideal) .ogt n (broadcastInDim T64 ![] hb (constant (F := Ideal) T_ .f32 0x00000000#32)))

/-- The number of such samples. -/
def vcount (n : FVec Ideal T64 .f32) : FVec Ideal T_ .f32 :=
  Host.reduceAdd (F := Ideal) (valid hb n) (constant (F := Ideal) T_ .f32 0x00000000#32) hr hpos

/-- The mean over the valid samples of a per-sample quantity `q`, zero when no sample is valid. -/
def meanValid (q n : FVec Ideal T64 .f32) : FVec Ideal T_ .f32 :=
  select (cmpf (F := Ideal) .ogt (vcount hpos hb hr n) (constant (F := Ideal) T_ .f32 0x00000000#32))
    (Host.divf (F := Ideal) (Host.reduceAdd (F := Ideal) (mulf q (valid hb n)) (constant (F := Ideal) T_ .f32 0x00000000#32) hr hpos)
      (maximumf (vcount hpos hb hr n) (constant (F := Ideal) T_ .f32 0x3F800000#32)))
    (id (constant (F := Ideal) T_ .f32 0x00000000#32))

/-- A sample's squared coordinate error over three times its node count (at least one). -/
def coordQ (se n : FVec Ideal T64 .f32) : FVec Ideal T64 .f32 :=
  Host.divf (F := Ideal) se (maximumf (mulf n (broadcastInDim T64 ![] hb (constant (F := Ideal) T_ .f32 0x40400000#32)))
    (broadcastInDim T64 ![] hb (constant (F := Ideal) T_ .f32 0x3F800000#32)))

/-- A sample's cross-entropy over the square of its node count (at least one). -/
def edgeQ (ed n : FVec Ideal T64 .f32) : FVec Ideal T64 .f32 :=
  Host.divf (F := Ideal) ed (maximumf (mulf n n) (broadcastInDim T64 ![] hb (constant (F := Ideal) T_ .f32 0x3F800000#32)))

def coordLoss (se n : FVec Ideal T64 .f32) : FVec Ideal T_ .f32 := meanValid hpos hb hr (coordQ hb se n) n

def edgeLoss (ed n : FVec Ideal T64 .f32) : FVec Ideal T_ .f32 := meanValid hpos hb hr (edgeQ hb ed n) n

/-- The mean squared difference between the predicted and the true node counts. -/
def countLoss (a2 : FVec Ideal T64x1 .f32) (n : FVec Ideal T64 .f32) : FVec Ideal T_ .f32 :=
  Host.divf (F := Ideal)
    (Host.reduceAdd (F := Ideal) (mulf (subf (shapeCast T64 a2 hc) n) (subf (shapeCast T64 a2 hc) n))
      (constant (F := Ideal) T_ .f32 0x00000000#32) hr hpos)
    (constant (F := Ideal) T_ .f32 0x42800000#32)

/-- The weighted total. -/
def totalLoss (se ed n : FVec Ideal T64 .f32) (a2 : FVec Ideal T64x1 .f32) : FVec Ideal T_ .f32 :=
  addf (addf (mulf (constant (F := Ideal) T_ .f32 0x3F800000#32) (coordLoss hpos hb hr se n))
      (mulf (constant (F := Ideal) T_ .f32 0x3F800000#32) (edgeLoss hpos hb hr ed n)))
    (mulf (constant (F := Ideal) T_ .f32 0x3DCCCCCD#32) (countLoss hpos hr hc a2 n))

end Cert.Tail

end
-- ==== Proof.KernelRun.lean ====
/-
  The kernel program's run, read: its four results are the shared loss functions (Tail.lean) of the kernel's
  per-sample numerators — lanes 0 and 1 of the region's output array, sliced and reshaped to [64] by the host lines
  after the region —, of the node counts the host computes before the region, and of the predicted counts.
-/
import proofs.«146693_j58007828300462_2_alg».proof.Proof.KernelArray
import proofs.«146693_j58007828300462_2_alg».proof.Proof.Tail
import Idealize.ShloMosaic.Lib.StableHlo.Run

set_option maxRecDepth 16384

noncomputable section

namespace Cert.KernelIdeal.Run

open Cert.KernelIdeal Cert.KernelIdeal.Gen Cert.Spec
open Idealize.ShloMosaic Idealize.ShloMosaic.TcCoe Idealize.ShloMosaic.ValueIdx
open Idealize.SL Idealize.SL.Sem Idealize.ShloMosaic.StableHlo
open scoped BigOperators

variable (m : (ℓ : Loc nD τ sig) → Buf (Elt Ideal) ℓ)

/-- The mask converted to a float, as the host line before the region leaves it. -/
def maskF (c : Dev nD) : FVec Ideal S64x512 .f32 := sitofp .f32 (m ((c.tc : Thread nD τ).loc main_arg5))

/-- The node count of each sample. -/
def nK (c : Dev nD) : FVec Ideal S64 .f32 :=
  Host.reduceAdd (F := Ideal) (maskF m c) (constant (F := Ideal) S_ .f32 0x00000000#32) reducesTo_S64x512_S64_d1 h_S_

/-! ## The host lines before the region -/

theorem V_v1 (c : Dev nD) : V m c main_v1 = nK m c := by
  show StableHlo.after hostOps0 (fun b => m (c, b)) (Proc.devRef .tc main_v1) = _
  after_results
  rfl

/-- The row mask the region finds: the float mask with a unit axis appended. -/
theorem V_v2 (c : Dev nD) : V m c main_v2 = shapeCast S64x512x1 (maskF m c) shapeCasts_S64x512_S64x512x1 := by
  show StableHlo.after hostOps0 (fun b => m (c, b)) (Proc.devRef .tc main_v2) = _
  after_results
  rfl

/-- The column mask the region finds: the float mask with a unit axis inserted in the middle. -/
theorem V_v3 (c : Dev nD) : V m c main_v3 = shapeCast S64x1x512 (maskF m c) shapeCasts_S64x512_S64x1x512 := by
  show StableHlo.after hostOps0 (fun b => m (c, b)) (Proc.devRef .tc main_v3) = _
  after_results
  rfl

/-! ## The host lines after the region -/

/-- Lane 0 of the region's output, as the [64] vector the tail reads. -/
def seVec (c : Dev nD) : FVec Ideal S64 .f32 :=
  shapeCast S64 (extractStridedSlice S64x1x1 ![0, 0, 0] (Arr.GK (Arr.seK m c) (Arr.edK m c)) slices_S64x1x128_S64x1x1_0_0_0)
    shapeCasts_S64x1x1_S64

/-- Lane 1 of the region's output, as the [64] vector the tail reads. -/
def edVec (c : Dev nD) : FVec Ideal S64 .f32 :=
  shapeCast S64 (extractStridedSlice S64x1x1 ![0, 0, 1] (Arr.GK (Arr.seK m c) (Arr.edK m c)) slices_S64x1x128_S64x1x1_0_0_1)
    shapeCasts_S64x1x1_S64

theorem seVec_apply (c : Dev nD) (b : Fin 64) : seVec m c (ix1 b) = Arr.seK m c b := by
  unfold seVec
  refine (shapeCast_apply _ _ (ix1 b) (ix3 b 0 0) ?_).trans ?_
  · rw [Shape.rowMajor_val_three, Shape.rowMajor_val_one]
    show (b.val * 1 + 0) * 1 + 0 = b.val
    omega
  refine (extractStridedSlice_apply _ _ _ (ix3 b 0 0) (ix3 b (0 : Fin 1) (0 : Fin 128)) ?_).trans ?_
  · intro a
    match a with
    | ⟨0, _⟩ => show b.val = 0 + b.val; omega
    | ⟨1, _⟩ => rfl
    | ⟨2, _⟩ => rfl
  · unfold Arr.GK Arr.atNat
    show (if (0 : Nat) = 0 then (if h : b.val < 64 then Arr.seK m c ⟨b.val, h⟩ else 0) else _) = _
    rw [if_pos rfl, dif_pos b.isLt]

theorem edVec_apply (c : Dev nD) (b : Fin 64) : edVec m c (ix1 b) = Arr.edK m c b := by
  unfold edVec
  refine (shapeCast_apply _ _ (ix1 b) (ix3 b 0 0) ?_).trans ?_
  · rw [Shape.rowMajor_val_three, Shape.rowMajor_val_one]
    show (b.val * 1 + 0) * 1 + 0 = b.val
    omega
  refine (extractStridedSlice_apply _ _ _ (ix3 b 0 0) (ix3 b (0 : Fin 1) (1 : Fin 128)) ?_).trans ?_
  · intro a
    match a with
    | ⟨0, _⟩ => show b.val = 0 + b.val; omega
    | ⟨1, _⟩ => rfl
    | ⟨2, _⟩ => rfl
  · unfold Arr.GK Arr.atNat
    show (if (1 : Nat) = 0 then _ else if (1 : Nat) = 1 then (if h : b.val < 64 then Arr.edK m c ⟨b.val, h⟩ else 0) else zeroB) = _
    rw [if_neg (by decide), if_pos rfl, dif_pos b.isLt]

/-- What the lines after the region read: the region's output array, … -/
theorem w_v4 (c : Dev nD) :
    Pipeline.withArrays (cfgs 0).spec c (V0 m c) (fun w => (dats m 0 c).arrAt w (cfgs 0).N) (Proc.devRef .tc main_v4) = Arr.GK (Arr.seK m c) (Arr.edK m c) :=
  (Pipeline.withArrays_arr spec0 launch0.win.arr_inj c _ _ 6).trans (Arr.final m c)

/-- … the node counts, which the region does not touch, … -/
theorem w_v1 (c : Dev nD) :
    Pipeline.withArrays (cfgs 0).spec c (V0 m c) (fun w => (dats m 0 c).arrAt w (cfgs 0).N) (Proc.devRef .tc main_v1) = nK m c :=
  (Pipeline.withArrays_of_ne _ c (V0 m c) _ main_v1 (by exact (by decide : ∀ w, Pipeline.arrRef spec0 w ≠ main_v1))).trans (V_v1 m c)

/-- … and the predicted counts, an argument the region does not stage. -/
theorem w_arg2 (c : Dev nD) :
    Pipeline.withArrays (cfgs 0).spec c (V0 m c) (fun w => (dats m 0 c).arrAt w (cfgs 0).N) (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)

set_option maxHeartbeats 4000000 in
theorem tail_total (c : Dev nD) :
    Pipeline.afterTail₀ cfgs (dats m) 0 (V0 m) [hostOps1, hostOps1_1, hostOps1_2, hostOps1_3, hostOps1_4, hostOps1_5] c main_v43
      = Tail.totalLoss h_S_ bcast_S_S64 reducesTo_S64_S_d0 shapeCasts_S64x1_S64 (seVec m c) (edVec m c) (nK m c)
          (m ((c.tc : Thread nD τ).loc main_arg2)) := by
  unfold Pipeline.afterTail₀
  simp only [hostOps1, hostOps1_1, hostOps1_2, hostOps1_3, hostOps1_4, hostOps1_5, List.flatten_cons, List.flatten_nil,
    List.append_nil, List.cons_append, List.nil_append]
  after_results_simp
  rw [w_v4 m c, w_v1 m c, w_arg2 m c]
  rfl

set_option maxHeartbeats 4000000 in
theorem tail_coord (c : Dev nD) :
    Pipeline.afterTail₀ cfgs (dats m) 0 (V0 m) [hostOps1, hostOps1_1, hostOps1_2, hostOps1_3, hostOps1_4, hostOps1_5] c main_v27
      = Tail.coordLoss h_S_ bcast_S_S64 reducesTo_S64_S_d0 (seVec m c) (nK m c) := by
  unfold Pipeline.afterTail₀
  simp only [hostOps1, hostOps1_1, hostOps1_2, hostOps1_3, hostOps1_4, hostOps1_5, List.flatten_cons, List.flatten_nil,
    List.append_nil, List.cons_append, List.nil_append]
  after_results_simp
  rw [w_v4 m c, w_v1 m c]
  rfl

set_option maxHeartbeats 4000000 in
theorem tail_edge (c : Dev nD) :
    Pipeline.afterTail₀ cfgs (dats m) 0 (V0 m) [hostOps1, hostOps1_1, hostOps1_2, hostOps1_3, hostOps1_4, hostOps1_5] c main_v32
      = Tail.edgeLoss h_S_ bcast_S_S64 reducesTo_S64_S_d0 (edVec m c) (nK m c) := by
  unfold Pipeline.afterTail₀
  simp only [hostOps1, hostOps1_1, hostOps1_2, hostOps1_3, hostOps1_4, hostOps1_5, List.flatten_cons, List.flatten_nil,
    List.append_nil, List.cons_append, List.nil_append]
  after_results_simp
  rw [w_v4 m c, w_v1 m c]
  rfl

set_option maxHeartbeats 4000000 in
theorem tail_count (c : Dev nD) :
    Pipeline.afterTail₀ cfgs (dats m) 0 (V0 m) [hostOps1, hostOps1_1, hostOps1_2, hostOps1_3, hostOps1_4, hostOps1_5] c main_v38
      = Tail.countLoss h_S_ reducesTo_S64_S_d0 shapeCasts_S64x1_S64 (m ((c.tc : Thread nD τ).loc main_arg2)) (nK m c) := by
  unfold Pipeline.afterTail₀
  simp only [hostOps1, hostOps1_1, hostOps1_2, hostOps1_3, hostOps1_4, hostOps1_5, List.flatten_cons, List.flatten_nil,
    List.append_nil, List.cons_append, List.nil_append]
  after_results_simp
  rw [w_arg2 m c, w_v1 m c]
  rfl

/-! ## The run -/

/-- Every weakly fair execution of the kernel program ends with its four results at the shared loss functions of the
    kernel's numerators, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v43)
        = Tail.totalLoss h_S_ bcast_S_S64 reducesTo_S64_S_d0 shapeCasts_S64x1_S64 (seVec m c) (edVec m c) (nK m c)
            (m ((c.tc : Thread nD τ).loc main_arg2))
      ∧ r.2.mem ((c.tc : Thread nD τ).loc main_v27) = Tail.coordLoss h_S_ bcast_S_S64 reducesTo_S64_S_d0 (seVec m c) (nK m c)
      ∧ r.2.mem ((c.tc : Thread nD τ).loc main_v32) = Tail.edgeLoss h_S_ bcast_S_S64 reducesTo_S64_S_d0 (edVec m c) (nK m c)
      ∧ r.2.mem ((c.tc : Thread nD τ).loc main_v38)
        = Tail.countLoss h_S_ reducesTo_S64_S_d0 shapeCasts_S64x1_S64 (m ((c.tc : Thread nD τ).loc main_arg2)) (nK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v43 (Pipeline.mem_restRefs_of main_v43 (by decide) (by decide))).trans (tail_total m c),
      ((h c).2 main_v27 (Pipeline.mem_restRefs_of main_v27 (by decide) (by decide))).trans (tail_coord m c),
      ((h c).2 main_v32 (Pipeline.mem_restRefs_of main_v32 (by decide) (by decide))).trans (tail_edge m c),
      ((h c).2 main_v38 (Pipeline.mem_restRefs_of main_v38 (by decide) (by decide))).trans (tail_count m c),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c)⟩)
    (run_main m ρ)

end Cert.KernelIdeal.Run

end
-- ==== Proof.RefValue.lean ====
/-
  The reference program's run, read: its four results are the shared loss functions (Tail.lean) of the reference's
  per-sample numerators, node counts and predicted counts, and each numerator read at a sample `b`:

    se b = 0 + ∑_n ∑_d ((x0(b,n,d) − x3(b,n,d))·(x0(b,n,d) − x3(b,n,d))) · μ(b,n)
    ed b = 0 + ∑_i ∑_j (−(t(b,i,j)·log P(b,i,j) + (1 − t(b,i,j))·log1p(−P(b,i,j)))) · (μ(b,i)·μ(b,j))

  with μ the mask converted to a float, t the target adjacency and P the predicted probability clipped to [lo, hi].
  The reference takes each double sum in one reduction over two axes.
-/
import proofs.«146693_j58007828300462_2_alg».proof.Proof.RefRunP
import proofs.«146693_j58007828300462_2_alg».proof.Proof.Tail
import proofs.«146693_j58007828300462_2_alg».proof.Proof.LibSums
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.TcCoe Idealize.SL.Sem
open Idealize.ShloMosaic.StableHlo Idealize.ShloMosaic.ValueIdx
open scoped BigOperators

abbrev A3 := (⟨S64x512x3, .f32⟩ : BufTy).Contents (Elt Ideal)
abbrev ANN := (⟨S64x512x512, .f32⟩ : BufTy).Contents (Elt Ideal)
abbrev AM := (⟨S64x512, .i32⟩ : BufTy).Contents (Elt Ideal)
abbrev AC := (⟨S64x1, .f32⟩ : BufTy).Contents (Elt Ideal)

/-- The node count of each sample: the sum of its mask. -/
def nRef (a5 : AM) : FVec Ideal S64 .f32 :=
  Host.reduceAdd (F := Ideal) (sitofp .f32 a5) (constant (F := Ideal) S_ .f32 0x00000000#32) Gen.reducesTo_S64x512_S64_d1 Gen.h_S_

/-- The masked squared coordinate error of each sample. -/
def seRef (a0 a3 : A3) (a5 : AM) : FVec Ideal S64 .f32 :=
  Host.reduceAdd (F := Ideal)
    (mulf (mulf (subf a0 a3) (subf a0 a3))
      (broadcastInDim S64x512x3 ![0, 1, 2] Gen.bcast_S64x512x1_S64x512x3_0_1_2
        (broadcastInDim S64x512x1 ![0, 1] Gen.bcast_S64x512_S64x512x1_0_1 (sitofp .f32 a5))))
    (constant (F := Ideal) S_ .f32 0x00000000#32) Gen.reducesTo_S64x512x3_S64_d1_2 Gen.h_S_

/-- The predicted probabilities clipped to [lo, hi]. -/
def clipRef (a1 : ANN) : FVec Ideal S64x512x512 .f32 :=
  minimumf (broadcastInDim S64x512x512 ![] Gen.bcast_S_S64x512x512 (id (constant (F := Ideal) S_ .f32 0x3F7FFFFE#32)))
    (maximumf (broadcastInDim S64x512x512 ![] Gen.bcast_S_S64x512x512 (id (constant (F := Ideal) S_ .f32 0x33D6BF95#32))) a1)

/-- The masked cross-entropy of each sample. -/
def edRef (a1 a4 : ANN) (a5 : AM) : FVec Ideal S64 .f32 :=
  Host.reduceAdd (F := Ideal)
    (mulf
      (Host.negf (addf (mulf a4 (Host.log (clipRef a1)))
        (mulf (subf (broadcastInDim S64x512x512 ![] Gen.bcast_S_S64x512x512 (constant (F := Ideal) S_ .f32 0x3F800000#32)) a4)
          (Host.log1p (Host.negf (clipRef a1))))))
      (mulf
        (broadcastInDim S64x512x512 ![0, 1, 2] Gen.bcast_S64x512x1_S64x512x512_0_1_2
          (broadcastInDim S64x512x1 ![0, 1] Gen.bcast_S64x512_S64x512x1_0_1 (sitofp .f32 a5)))
        (broadcastInDim S64x512x512 ![0, 1, 2] Gen.bcast_S64x1x512_S64x512x512_0_1_2
          (broadcastInDim S64x1x512 ![0, 2] Gen.bcast_S64x512_S64x1x512_0_2 (sitofp .f32 a5)))))
    (constant (F := Ideal) S_ .f32 0x00000000#32) Gen.reducesTo_S64x512x512_S64_d1_2 Gen.h_S_

set_option maxRecDepth 8192 in
set_option maxHeartbeats 2000000 in
/-- Every weakly fair execution of the reference ends with its four results at the shared loss functions of its own
    numerators, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59)
        = Tail.totalLoss Gen.h_S_ Gen.bcast_S_S64 Gen.reducesTo_S64_S_d0 Gen.shapeCasts_S64x1_S64
            (seRef (m ((c.tc : Thread nD τ).loc main_arg0)) (m ((c.tc : Thread nD τ).loc main_arg3)) (m ((c.tc : Thread nD τ).loc main_arg5)))
            (edRef (m ((c.tc : Thread nD τ).loc main_arg1)) (m ((c.tc : Thread nD τ).loc main_arg4)) (m ((c.tc : Thread nD τ).loc main_arg5)))
            (nRef (m ((c.tc : Thread nD τ).loc main_arg5))) (m ((c.tc : Thread nD τ).loc main_arg2))
      ∧ r.2.mem ((c.tc : Thread nD τ).loc main_v43)
        = Tail.coordLoss Gen.h_S_ Gen.bcast_S_S64 Gen.reducesTo_S64_S_d0
            (seRef (m ((c.tc : Thread nD τ).loc main_arg0)) (m ((c.tc : Thread nD τ).loc main_arg3)) (m ((c.tc : Thread nD τ).loc main_arg5)))
            (nRef (m ((c.tc : Thread nD τ).loc main_arg5)))
      ∧ r.2.mem ((c.tc : Thread nD τ).loc main_v48)
        = Tail.edgeLoss Gen.h_S_ Gen.bcast_S_S64 Gen.reducesTo_S64_S_d0
            (edRef (m ((c.tc : Thread nD τ).loc main_arg1)) (m ((c.tc : Thread nD τ).loc main_arg4)) (m ((c.tc : Thread nD τ).loc main_arg5)))
            (nRef (m ((c.tc : Thread nD τ).loc main_arg5)))
      ∧ r.2.mem ((c.tc : Thread nD τ).loc main_v54)
        = Tail.countLoss Gen.h_S_ Gen.reducesTo_S64_S_d0 Gen.shapeCasts_S64x1_S64
            (m ((c.tc : Thread nD τ).loc main_arg2)) (nRef (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans (by unfold Cert.ReferenceIdeal.ValueP.res_main_v59; rfl),
      (h c).2.1.trans rfl, (h c).2.2.1.trans rfl, (h c).2.2.2.1.trans rfl, (h c).2.2.2.2⟩)
    (Cert.ReferenceIdeal.ValueP.run (F := Ideal) m ρ)

end Cert.ReferenceIdeal.RefValue

end
-- ==== Proof.RefRead.lean ====
/-
  The reference's two numerators read at a sample `b`, over the abstract sums of Spec.lean.

  The mask enters the reference as a float array μ(b, n) (the integer mask converted), broadcast along the coordinate
  axis for the squared error and as the outer product μ(b, i)·μ(b, j) for the cross-entropy; each numerator is ONE
  host sum over two axes, which at the extended reals is the initial value (zero) plus the double sum.
-/
import proofs.«146693_j58007828300462_2_alg».proof.Proof.RefValue
import proofs.«146693_j58007828300462_2_alg».proof.Proof.Spec

noncomputable section

namespace Cert.ReferenceIdeal.RefValue

open Cert.ReferenceIdeal Idealize.ShloMosaic Idealize.ShloMosaic.ValueIdx Cert.Spec
open scoped BigOperators

/-- The mask of sample `b` at node `n`, as a float. -/
def mu (a5 : AM) (b : Fin 64) (n : Fin 512) : EReal := FloatOps.sitofp (F := Ideal) .f32 (a5 (ix2 b n))

/-- It is an integer, so a real. -/
theorem mu_real (a5 : AM) (b : Fin 64) (n : Fin 512) : ∃ r : ℝ, mu a5 b n = (r : EReal) := ⟨_, rfl⟩

/-- The row mask spread along the coordinate axis. -/
theorem rows3 (x : FVec Ideal S64x512 .f32) (b : Fin 64) (n : Fin 512) (d : Fin 3) :
    broadcastInDim S64x512x3 ![0, 1, 2] Gen.bcast_S64x512x1_S64x512x3_0_1_2
      (broadcastInDim S64x512x1 ![0, 1] Gen.bcast_S64x512_S64x512x1_0_1 x) (ix3 b n d) = x (ix2 b n) :=
  (broadcastInDim_apply _ _ _ (ix3 b n d) (ix3 b n 0)
    (fun a => by match a with | ⟨0, _⟩ => rfl | ⟨1, _⟩ => rfl | ⟨2, _⟩ => rfl)).trans
  (broadcastInDim_apply _ _ x (ix3 b n 0) (ix2 b n) (fun a => by match a with | ⟨0, _⟩ => rfl | ⟨1, _⟩ => rfl))

/-- The row mask spread along the columns. -/
theorem rowsNN (x : FVec Ideal S64x512 .f32) (b : Fin 64) (i j : Fin 512) :
    broadcastInDim S64x512x512 ![0, 1, 2] Gen.bcast_S64x512x1_S64x512x512_0_1_2
      (broadcastInDim S64x512x1 ![0, 1] Gen.bcast_S64x512_S64x512x1_0_1 x) (ix3 b i j) = x (ix2 b i) :=
  (broadcastInDim_apply _ _ _ (ix3 b i j) (ix3 b i 0)
    (fun a => by match a with | ⟨0, _⟩ => rfl | ⟨1, _⟩ => rfl | ⟨2, _⟩ => rfl)).trans
  (broadcastInDim_apply _ _ x (ix3 b i 0) (ix2 b i) (fun a => by match a with | ⟨0, _⟩ => rfl | ⟨1, _⟩ => rfl))

/-- The column mask spread along the rows. -/
theorem colsNN (x : FVec Ideal S64x512 .f32) (b : Fin 64) (i j : Fin 512) :
    broadcastInDim S64x512x512 ![0, 1, 2] Gen.bcast_S64x1x512_S64x512x512_0_1_2
      (broadcastInDim S64x1x512 ![0, 2] Gen.bcast_S64x512_S64x1x512_0_2 x) (ix3 b i j) = x (ix2 b j) :=
  (broadcastInDim_apply _ _ _ (ix3 b i j) (ix3 b 0 j)
    (fun a => by match a with | ⟨0, _⟩ => rfl | ⟨1, _⟩ => rfl | ⟨2, _⟩ => rfl)).trans
  (broadcastInDim_apply _ _ x (ix3 b 0 j) (ix2 b j) (fun a => by match a with | ⟨0, _⟩ => rfl | ⟨1, _⟩ => rfl))

/-- The reference's squared-error numerator at sample `b`. -/
theorem seRef_apply (a0 a3 : A3) (a5 : AM) (b : Fin 64) :
    seRef a0 a3 a5 (ix1 b)
      = zeroB + seSum (fun n d => a0 (ix3 b n d)) (fun n d => a3 (ix3 b n d)) (fun n => mu a5 b n) := by
  unfold seRef seSum
  refine (LibSums.hostSum_axes12 Gen.reducesTo_S64x512x3_S64_d1_2 _ _ b).trans ?_
  refine congrArg₂ (· + ·) rfl ?_
  refine Finset.sum_congr rfl fun n _ => Finset.sum_congr rfl fun d _ => ?_
  refine (mulf_apply _ _ (ix3 b n d)).trans ?_
  refine congrArg₂ (· * ·) rfl ?_
  exact rows3 _ b n d

/-- The reference's cross-entropy numerator at sample `b`. -/
theorem edRef_apply (a1 a4 : ANN) (a5 : AM) (b : Fin 64) :
    edRef a1 a4 a5 (ix1 b)
      = zeroB + edSumR (fun i j => a1 (ix3 b i j)) (fun i j => a4 (ix3 b i j)) (fun i => mu a5 b i) (fun j => mu a5 b j) := by
  unfold edRef edSumR
  refine (LibSums.hostSum_axes12 Gen.reducesTo_S64x512x512_S64_d1_2 _ _ b).trans ?_
  refine congrArg₂ (· + ·) rfl ?_
  refine Finset.sum_congr rfl fun i _ => Finset.sum_congr rfl fun j _ => ?_
  refine (mulf_apply _ _ (ix3 b i j)).trans ?_
  refine congrArg₂ (· * ·) rfl ?_
  refine (mulf_apply _ _ (ix3 b i j)).trans ?_
  exact congrArg₂ (· * ·) (rowsNN _ b i j) (colsNN _ b i j)

end Cert.ReferenceIdeal.RefValue

end
-- ==== Proof.Bridge.lean ====
/-
  The two programs feed the shared loss functions equal numerators.

  Squared error: both are the same double sum over nodes and coordinates; the kernel's row mask (the float mask with a
  unit axis appended, as the host line before the region leaves it) and the reference's broadcast of the float mask
  read the same entry. Cross-entropy: the kernel's arrangement — element without (1 − t), column mask under the inner
  sum, row mask under the outer — equals the reference's by Spec.lean's law, which needs the targets finite (the
  precondition) and the masks finite (they are integers).
-/
import proofs.«146693_j58007828300462_2_alg».proof.Proof.KernelRun
import proofs.«146693_j58007828300462_2_alg».proof.Proof.RefRead

set_option maxRecDepth 16384

noncomputable section

namespace Cert.Bridge

open Cert.KernelIdeal Cert.KernelIdeal.Gen Cert.Spec
open Idealize.ShloMosaic Idealize.ShloMosaic.TcCoe Idealize.ShloMosaic.ValueIdx
open Idealize.SL Idealize.SL.Sem
open Cert.ReferenceIdeal.RefValue (mu mu_real seRef edRef nRef seRef_apply edRef_apply)
open scoped BigOperators

variable (m : (ℓ : Loc nD τ sig) → Buf (Elt Ideal) ℓ) (c : Dev nD)

/-- The kernel's row mask at (b, n, 0) is the float mask at (b, n). -/
theorem mask_row (b : Fin 64) (n : Fin 512) :
    V m c main_v2 (ix3 b n 0) = mu (m ((c.tc : Thread nD τ).loc main_arg5)) b n := by
  rw [Run.V_v2]
  refine (shapeCast_apply _ _ (ix3 b n 0) (ix2 b n) ?_).trans rfl
  rw [Shape.rowMajor_val_two, Shape.rowMajor_val_three]
  show b.val * 512 + n.val = (b.val * 512 + n.val) * 1 + 0
  omega

/-- The kernel's column mask at (b, 0, j) is the float mask at (b, j). -/
theorem mask_col (b : Fin 64) (j : Fin 512) :
    V m c main_v3 (ix3 b 0 j) = mu (m ((c.tc : Thread nD τ).loc main_arg5)) b j := by
  rw [Run.V_v3]
  refine (shapeCast_apply _ _ (ix3 b 0 j) (ix2 b j) ?_).trans rfl
  rw [Shape.rowMajor_val_two, Shape.rowMajor_val_three]
  show b.val * 512 + j.val = (b.val * 1 + 0) * 512 + j.val
  omega

/-- The squared-error numerators agree. -/
theorem se_eq :
    Run.seVec m c = seRef (m ((c.tc : Thread nD τ).loc main_arg0)) (m ((c.tc : Thread nD τ).loc main_arg3)) (m ((c.tc : Thread nD τ).loc main_arg5)) := by
  funext j
  obtain ⟨b, rfl⟩ : ∃ b : Fin 64, j = ix1 b := ⟨j 0, eq_ix1 j⟩
  rw [Run.seVec_apply, seRef_apply, zeroB_eq, zero_add]
  unfold Arr.seK seOf
  rw [V_main_arg0, V_main_arg3]
  unfold seSum
  refine Finset.sum_congr rfl fun n _ => Finset.sum_congr rfl fun d _ => ?_
  beta_reduce
  rw [mask_row]

/-- The cross-entropy numerators agree where the targets are finite. -/
theorem ed_eq (hfin : ∀ i, ∃ r : ℝ, m ((c.tc : Thread nD τ).loc main_arg4) i = (r : EReal)) :
    Run.edVec m c = edRef (m ((c.tc : Thread nD τ).loc main_arg1)) (m ((c.tc : Thread nD τ).loc main_arg4)) (m ((c.tc : Thread nD τ).loc main_arg5)) := by
  funext j
  obtain ⟨b, rfl⟩ : ∃ b : Fin 64, j = ix1 b := ⟨j 0, eq_ix1 j⟩
  rw [Run.edVec_apply, edRef_apply, zeroB_eq, zero_add]
  unfold Arr.edK edOf
  rw [V_main_arg1, V_main_arg4]
  rw [show (fun i => V m c main_v2 (ix3 b i 0)) = fun i => mu (m ((c.tc : Thread nD τ).loc main_arg5)) b i from
      funext fun i => mask_row m c b i,
    show (fun j => V m c main_v3 (ix3 b 0 j)) = fun j => mu (m ((c.tc : Thread nD τ).loc main_arg5)) b j from
      funext fun j => mask_col m c b j]
  choose tr htr using fun (i j : Fin 512) => hfin (ix3 b i j)
  choose μr hμr using fun n : Fin 512 => mu_real (m ((c.tc : Thread nD τ).loc main_arg5)) b n
  rw [show (fun i j => m ((c.tc : Thread nD τ).loc main_arg4) (ix3 b i j)) = fun i j => ((tr i j : ℝ) : EReal) from
      funext fun i => funext fun j => htr i j,
    show (fun i => mu (m ((c.tc : Thread nD τ).loc main_arg5)) b i) = fun i => ((μr i : ℝ) : EReal) from funext hμr]
  exact edSumK_eq_edSumR _ tr μr μr

/-- The node counts are the same sum of the same mask. -/
theorem n_eq : Run.nK m c = nRef (m ((c.tc : Thread nD τ).loc main_arg5)) := rfl

end Cert.Bridge

end
-- ==== Proof.Finite.lean ====
/-
  What the precondition gives: every entry of the target adjacency is a real number.

  The precondition is the conjunction, over the five float arguments, of "every |entry| is below +∞"; the target
  adjacency's clause is the last conjunct. An extended real whose absolute value max x (−x) is below +∞ is neither
  infinity, so it is a real.
-/
import proofs.«146693_j58007828300462_2_alg».proof.Defs
import proofs.«146693_j58007828300462_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.SL.Sem

instance : Subsingleton Cert.Pre_finite_inputs.S_.Idx := ⟨fun a b => funext fun d => d.elim0⟩

/-- The f32 pattern of +∞ denotes ⊤. -/
theorem ofBits_inf : Ideal.ofBits .f32 0x7F800000#32 = ⊤ := by
  simp [Ideal.ofBits, Ideal.ieee]

/-- An extended real whose absolute value compares below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => exact absurd h (by simp [Ideal.cmp])
  | top => exact absurd h (by simp [Ideal.cmp])
  | coe r => exact ⟨r, rfl⟩

/-- Under the precondition every entry of the kernel program's target adjacency is a real. -/
theorem arg4_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x512x512.Idx) :
    ∃ r : ℝ, m ((c.tc : Thread Cert.KernelIdeal.nD Cert.KernelIdeal.τ).loc Cert.KernelIdeal.main_arg4) i = (r : EReal) := by
  have h0 := congrFun (h c) ValueIdx.ix0
  dsimp only [Cert.Pre_finite_inputs.fn, Cert.Pre_finite_inputs.fn_part1] at h0
  have h1 := (IntOp.andi_eq_one.1 h0).2
  have h2 := Host.reduce_andi_all _ _ _ _ _ h1 i
  exact real_of_abs_lt _ h2

end Cert.Finite

end
-- ==== Proof.lean ====
/-
  The certificate: a masked graph-reconstruction loss — per-sample mean squared coordinate error, per-sample
  binary cross-entropy over the adjacency block, a node-count error, reduced over the batch to four scalars — computed
  by a kernel that streams four samples per grid point and returns the two per-sample numerators, against the plain
  array program.

  At the extended reals the two programs differ in two places only. The kernel writes the cross-entropy element as
  −(log1p(−P) + t·(log P − log1p(−P))) where the reference has −(t·log P + (1 − t)·log1p(−P)); and it folds the node mask
  into the two lane sums one after the other, ∑_i (∑_j e(i,j)·μ(j))·μ(i), where the reference multiplies by the outer
  product μ(i)·μ(j) under one double sum. Both are distributivity, which on the extended reals needs finite terms: the
  clipped probability P is a real in (0, 1) whatever the input (so both logarithms are reals), the mask entries are
  integers, and the targets t are finite by the precondition (Finite.lean) — the one place it is used. Everything after
  the numerators is the same sequence of host operations in both programs (Tail.lean), carried as one function.

  The modules: Spec (the sums and the law), LibSums (sums read at an index), KernelBody / KernelArray / KernelRun (the
  kernel's stored block, its output array, its run), RefRunP / RefValue / RefRead (the reference's run and its
  numerators at a sample), Bridge (the numerators agree), Finite (the precondition read).
-/
import proofs.«146693_j58007828300462_2_alg».proof.Defs
import proofs.«146693_j58007828300462_2_alg».proof.Proof.Gen.Kernel
import proofs.«146693_j58007828300462_2_alg».proof.Proof.Gen.Kernel.Frame
import proofs.«146693_j58007828300462_2_alg».proof.Proof.Gen.KernelIdeal
import proofs.«146693_j58007828300462_2_alg».proof.Proof.Gen.KernelIdeal.Frame
import proofs.«146693_j58007828300462_2_alg».proof.Proof.Gen.ReferenceIdeal
import proofs.«146693_j58007828300462_2_alg».proof.Proof.Gen.Pre_finite_inputs
import proofs.«146693_j58007828300462_2_alg».proof.Proof.Bridge
import proofs.«146693_j58007828300462_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => (h c).2.2.2.2) (Cert.ReferenceIdeal.RefValue.run m ρ)

/-- The ideal pass rewrote nothing. -/
theorem preserves : Cert.preserves_Kernel_KernelIdeal := trivial

/-- From memories agreeing on the arguments both programs end with the four losses at the shared functions of the
    kernel's numerators: the kernel's run states exactly that, and the reference's numerators are the kernel's. -/
theorem algebraic : Cert.algebraic_KernelIdeal_ReferenceIdeal := by
  intro m ρ m' ρ' hpre hagree
  refine ⟨fun c => Cert.Tail.totalLoss Cert.KernelIdeal.Gen.h_S_ Cert.KernelIdeal.Gen.bcast_S_S64 Cert.KernelIdeal.Gen.reducesTo_S64_S_d0
        Cert.KernelIdeal.Gen.shapeCasts_S64x1_S64 (Cert.KernelIdeal.Run.seVec m c) (Cert.KernelIdeal.Run.edVec m c)
        (Cert.KernelIdeal.Run.nK m c) (m ((c.tc : Thread Cert.KernelIdeal.nD Cert.KernelIdeal.τ).loc Cert.KernelIdeal.main_arg2)),
      fun c => Cert.Tail.coordLoss Cert.KernelIdeal.Gen.h_S_ Cert.KernelIdeal.Gen.bcast_S_S64 Cert.KernelIdeal.Gen.reducesTo_S64_S_d0
        (Cert.KernelIdeal.Run.seVec m c) (Cert.KernelIdeal.Run.nK m c),
      fun c => Cert.Tail.edgeLoss Cert.KernelIdeal.Gen.h_S_ Cert.KernelIdeal.Gen.bcast_S_S64 Cert.KernelIdeal.Gen.reducesTo_S64_S_d0
        (Cert.KernelIdeal.Run.edVec m c) (Cert.KernelIdeal.Run.nK m c),
      fun c => Cert.Tail.countLoss Cert.KernelIdeal.Gen.h_S_ Cert.KernelIdeal.Gen.reducesTo_S64_S_d0
        Cert.KernelIdeal.Gen.shapeCasts_S64x1_S64 (m ((c.tc : Thread Cert.KernelIdeal.nD Cert.KernelIdeal.τ).loc Cert.KernelIdeal.main_arg2)) (Cert.KernelIdeal.Run.nK m c),
      Cert.KernelIdeal.Run.run m ρ, ?_⟩
  refine (θ_run Cert.ReferenceIdeal.defs _ _).mono (fun _ h c => ?_) (Cert.ReferenceIdeal.RefValue.run m' ρ')
  obtain ⟨h0, h1, h2, h3, hargs⟩ := h c
  obtain ⟨g0, g1, g2, g3, g4, g5⟩ := hagree c
  have hse := Cert.Bridge.se_eq m c
  have hed := Cert.Bridge.ed_eq m c (fun i => Cert.Finite.arg4_real m hpre c i)
  have hn := Cert.Bridge.n_eq m c
  simp only [g0, g1, g2, g3, g4, g5, ← hse, ← hed, ← hn] at h0 h1 h2 h3
  exact ⟨h0, h1, h2, h3, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
